-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1677721 : Shape := ⟨1, ![1677721]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1677721 : S_.BroadcastsInDim S1677721 (![] : Fin 0 → Fin S1677721.rank)
  reducesTo_S1677721_S_d0 : S1677721.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S1677721 .f32) (main_arg2 : FVec F S4096 .f32) (main_arg3 : IVec S1677721 32) (main_arg4 : IVec S1677721 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1677721 .f32 := Host.absf main_arg1
  let main_cst_0 : FVec F S_ .f32 := constant S_ .f32 0x7F800000#32
  let main_v5 : FVec F S1677721 .f32 := broadcastInDim S1677721 ![] bcast_S_S1677721 main_cst_0
  let main_v6 : IVec S1677721 1 := cmpf .olt main_v4 main_v5
  let main_c_1 : IVec S_ 1 := constantI S_ 1 1#1
  let main_v7 : IVec S_ 1 := (fun x v => Host.reduce IntOp.andi x v reducesTo_S1677721_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S1677721 : Shape := ⟨1, ![1677721]⟩
abbrev S4096 : Shape := ⟨1, ![4096]⟩
abbrev S_ : Shape := ⟨0, ![]⟩
abbrev S4096x4096 : Shape := ⟨2, ![4096, 4096]⟩
abbrev S1677721x1 : Shape := ⟨2, ![1677721, 1]⟩
abbrev S1677721x2 : Shape := ⟨2, ![1677721, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 29
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1677721, .f32⟩
  | .hbm, ⟨2, _⟩ => ⟨S4096, .f32⟩
  | .hbm, ⟨3, _⟩ => ⟨S1677721, .i32⟩
  | .hbm, ⟨4, _⟩ => ⟨S1677721, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1677721, .i32⟩
  | .hbm, ⟨9, _⟩ => ⟨S1677721, .i1⟩
  | .hbm, ⟨10, _⟩ => ⟨S_, .i32⟩
  | .hbm, ⟨11, _⟩ => ⟨S1677721, .i32⟩
  | .hbm, ⟨12, _⟩ => ⟨S1677721, .i32⟩
  | .hbm, ⟨13, _⟩ => ⟨S1677721, .i32⟩
  | .hbm, ⟨14, _⟩ => ⟨S_, .i32⟩
  | .hbm, ⟨15, _⟩ => ⟨S1677721, .i32⟩
  | .hbm, ⟨16, _⟩ => ⟨S1677721, .i1⟩
  | .hbm, ⟨17, _⟩ => ⟨S_, .i32⟩
  | .hbm, ⟨18, _⟩ => ⟨S1677721, .i32⟩
  | .hbm, ⟨19, _⟩ => ⟨S1677721, .i32⟩
  | .hbm, ⟨20, _⟩ => ⟨S1677721, .i32⟩
  | .hbm, ⟨21, _⟩ => ⟨S1677721x1, .i32⟩
  | .hbm, ⟨22, _⟩ => ⟨S1677721x1, .i32⟩
  | .hbm, ⟨23, _⟩ => ⟨S1677721x2, .i32⟩
  | .hbm, ⟨24, _⟩ => ⟨S4096x4096, .f32⟩
  | .hbm, ⟨25, _⟩ => ⟨S8192x4096, .bf16⟩
  | .hbm, ⟨26, _⟩ => ⟨S4096x4096, .bf16⟩
  | .hbm, ⟨27, _⟩ => ⟨S1x4096, .f32⟩
  | .hbm, ⟨28, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1677721 : S_.BroadcastsInDim S1677721 (![] : Fin 0 → Fin S1677721.rank)
  bcast_S1677721_S1677721x1_0 : S1677721.BroadcastsInDim S1677721x1 (![0] : Fin 1 → Fin S1677721x1.rank)
  concatenates_S1677721x1_S1677721x1_S1677721x2_d1 : Shape.Concatenates [S1677721x1, S1677721x1] S1677721x2 1
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S1677721x2_S1677721_n_01_01_1_wf : ScatterDims.WF S4096x4096 S1677721x2 S1677721 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S4096x4096_S1677721x2_S1677721_n_01_01_1 : ScatterDims S4096x4096 S1677721x2 S1677721 where
  updateWindowDims := []
  insertedWindowDims := [0, 1]
  scatterDimsToOperandDims := [0, 1]
  indexVectorDim := 1
  wf := scatter_S4096x4096_S1677721x2_S1677721_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v15) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S1677721 : Shape := ⟨1, ![1677721]⟩
abbrev S4096 : Shape := ⟨1, ![4096]⟩
abbrev S_ : Shape := ⟨0, ![]⟩
abbrev S4096x4096 : Shape := ⟨2, ![4096, 4096]⟩
abbrev S1677721x1 : Shape := ⟨2, ![1677721, 1]⟩
abbrev S1677721x2 : Shape := ⟨2, ![1677721, 2]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1677721, .f32⟩
  | .hbm, ⟨2, _⟩ => ⟨S4096, .f32⟩
  | .hbm, ⟨3, _⟩ => ⟨S1677721, .i32⟩
  | .hbm, ⟨4, _⟩ => ⟨S1677721, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1677721, .i32⟩
  | .hbm, ⟨9, _⟩ => ⟨S1677721, .i1⟩
  | .hbm, ⟨10, _⟩ => ⟨S_, .i32⟩
  | .hbm, ⟨11, _⟩ => ⟨S1677721, .i32⟩
  | .hbm, ⟨12, _⟩ => ⟨S1677721, .i32⟩
  | .hbm, ⟨13, _⟩ => ⟨S1677721, .i32⟩
  | .hbm, ⟨14, _⟩ => ⟨S_, .i32⟩
  | .hbm, ⟨15, _⟩ => ⟨S1677721, .i32⟩
  | .hbm, ⟨16, _⟩ => ⟨S1677721, .i1⟩
  | .hbm, ⟨17, _⟩ => ⟨S_, .i32⟩
  | .hbm, ⟨18, _⟩ => ⟨S1677721, .i32⟩
  | .hbm, ⟨19, _⟩ => ⟨S1677721, .i32⟩
  | .hbm, ⟨20, _⟩ => ⟨S1677721, .i32⟩
  | .hbm, ⟨21, _⟩ => ⟨S1677721x1, .i32⟩
  | .hbm, ⟨22, _⟩ => ⟨S1677721x1, .i32⟩
  | .hbm, ⟨23, _⟩ => ⟨S1677721x2, .i32⟩
  | .hbm, ⟨24, _⟩ => ⟨S4096x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1677721 : S_.BroadcastsInDim S1677721 (![] : Fin 0 → Fin S1677721.rank)
  bcast_S1677721_S1677721x1_0 : S1677721.BroadcastsInDim S1677721x1 (![0] : Fin 1 → Fin S1677721x1.rank)
  concatenates_S1677721x1_S1677721x1_S1677721x2_d1 : Shape.Concatenates [S1677721x1, S1677721x1] S1677721x2 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  scatter_S4096x4096_S1677721x2_S1677721_n_01_01_1_wf : ScatterDims.WF S4096x4096 S1677721x2 S1677721 [] [0, 1] [0, 1] 1
  dot_S8192x4096_S4096x4096_S8192x4096_1_0_0_1_n_n_wf : DotDims.WF S8192x4096 S4096x4096 S8192x4096 [1] [0] [0] [1] [] []

variable [Facts₀]

def scatter_S4096x4096_S1677721x2_S1677721_n_01_01_1 : ScatterDims S4096x4096 S1677721x2 S1677721 where
  updateWindowDims := []
  insertedWindowDims := [0, 1]
  scatterDimsToOperandDims := [0, 1]
  indexVectorDim := 1
  wf := scatter_S4096x4096_S1677721x2_S1677721_n_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibNatCoords.lean ====
/-
  GENERAL LEMMAS, independent of any program: matrices and vectors over the extended reals read by natural-number
  coordinates, and a sum over consecutive naturals cut into slabs.

  `at2 X r k` is entry (r, k) of a matrix given over its index type, `0` outside the matrix (`at1` likewise for a
  vector). Reading by naturals turns the relation between a block's local coordinates and the whole matrix's
  coordinates — (block index) · (block extent) + (local coordinate) — into plain arithmetic on naturals, with no
  dependent index types in the way. `at2_idx` / `at1_idx` pass from an entry at an index to the natural-number
  reading, `at2_of_lt` / `at1_of_lt` back.

  `sum_range_mul`: in any additive commutative monoid — the extended reals included, with no finiteness asked — the
  sum over the first `a · b` naturals is the sum over `a` consecutive slabs of the sums over each slab's `b`
  naturals. This is the law that joins a contraction accumulated slab by slab (a matrix product whose inner
  dimension is cut into blocks) to the same contraction formed in one sum.
-/
import Idealize.ShloMosaic.PureOps.Ideal
import Idealize.ShloMosaic.Lib.ValueIdx

noncomputable section

namespace Cert.NatCoords

open Idealize.ShloMosaic Idealize.ShloMosaic.ValueIdx

/-- Entry `(r, k)` of an `n0 × n1` matrix, by natural-number coordinates; `0` outside the matrix. -/
def at2 {n0 n1 : ℕ} (X : (⟨2, ![n0, n1]⟩ : Shape).Idx → EReal) (r k : ℕ) : EReal :=
  if h : r < n0 ∧ k < n1 then X (ix2 ⟨r, h.1⟩ ⟨k, h.2⟩) else 0

/-- Inside the matrix `at2` is the entry. -/
theorem at2_of_lt {n0 n1 : ℕ} (X : (⟨2, ![n0, n1]⟩ : Shape).Idx → EReal) (r k : ℕ) (hr : r < n0) (hk : k < n1) :
    at2 X r k = X (ix2 ⟨r, hr⟩ ⟨k, hk⟩) := by
  unfold at2; rw [dif_pos ⟨hr, hk⟩]

/-- An entry at an index is `at2` at the index's coordinates. -/
theorem at2_idx {n0 n1 : ℕ} (X : (⟨2, ![n0, n1]⟩ : Shape).Idx → EReal) (j : (⟨2, ![n0, n1]⟩ : Shape).Idx) :
    X j = at2 X (j 0).val (j 1).val := by
  rw [at2_of_lt X _ _ (j 0).isLt (j 1).isLt]
  exact congrArg X (eq_ix2 j)

/-- Entry `s` of a vector of `n` entries, by its natural-number coordinate; `0` outside. -/
def at1 {n : ℕ} (b : (⟨1, ![n]⟩ : Shape).Idx → EReal) (s : ℕ) : EReal :=
  if h : s < n then b (ix1 ⟨s, h⟩) else 0

/-- Inside the vector `at1` is the entry. -/
theorem at1_of_lt {n : ℕ} (b : (⟨1, ![n]⟩ : Shape).Idx → EReal) (s : ℕ) (hs : s < n) : at1 b s = b (ix1 ⟨s, hs⟩) := by
  unfold at1; rw [dif_pos hs]

/-- An entry at an index is `at1` at the index's coordinate. -/
theorem at1_idx {n : ℕ} (b : (⟨1, ![n]⟩ : Shape).Idx → EReal) (j : (⟨1, ![n]⟩ : Shape).Idx) : b j = at1 b (j 0).val := by
  rw [at1_of_lt b _ (j 0).isLt]
  exact congrArg b (eq_ix1 j)

/-- A sum over the first `a · b` naturals is the sum, over `a` consecutive slabs, of the sums over each slab's `b`
    naturals — in any additive commutative monoid. -/
theorem sum_range_mul {β : Type*} [AddCommMonoid β] (f : ℕ → β) (b : ℕ) : ∀ a : ℕ,
    ∑ k ∈ Finset.range (a * b), f k = ∑ s ∈ Finset.range a, ∑ kk ∈ Finset.range b, f (b * s + kk)
  | 0 => by simp
  | a + 1 => by
    rw [Nat.succ_mul, Finset.sum_range_add, sum_range_mul f b a, Finset.sum_range_succ]
    congr 1
    exact Finset.sum_congr rfl fun kk _ => by rw [Nat.mul_comm]

end Cert.NatCoords

end
-- ==== Proof.Dense.lean ====
/-
  The function both programs compute, and the one law that joins them.

  A dense layer over the extended reals: entry (r, s) of the result is
  `max (∑ k < 4096, X r k · W k s + b s) 0`. The kernel forms the inner sum in four slabs of 1024 consecutive
  values of `k`, accumulated slab after slab from zero; the reference forms it as one sum over all 4096. Addition on
  the extended reals is commutative and associative (an additive commutative monoid, infinities included), so a
  sum over `a · b` consecutive naturals is the sum over `a` slabs of the sums over each slab's `b` naturals: no
  finiteness of the entries is needed.

  Matrices are read here by NATURAL-NUMBER coordinates (`at2`, `at1`: the entry inside the matrix, `0` outside, where
  nothing ever looks), so that the arithmetic that relates a block's local coordinates to the matrix's is plain
  arithmetic on naturals.
-/
import proofs.«123908_j10359461118625_1_alg».proof.Proof.LibNatCoords
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

export Cert.NatCoords (at2 at2_of_lt at2_idx at1 at1_of_lt at1_idx sum_range_mul)

/-- THE SPECIFICATION: the dense layer `max (X · W + b) 0` of an 8192 × 4096 input, a 4096 × 4096 weight and a bias of
    4096 entries, entry by entry. -/
def denseRelu (X : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun j => max ((∑ k ∈ Finset.range 4096, at2 X (j 0).val k * at2 W k (j 1).val) + at1 b (j 1).val) 0

/-- The inner sum over all 4096 values of `k` is the sum over the four slabs of 1024. -/
theorem sum_4096 {β : Type*} [AddCommMonoid β] (f : ℕ → β) :
    ∑ k ∈ Finset.range 4096, f k = ∑ s ∈ Finset.range 4, ∑ kk ∈ Finset.range 1024, f (1024 * s + kk) :=
  sum_range_mul f 1024 4

end Cert.Dense

end
-- ==== Proof.Pieces.lean ====
/-
  What one grid point leaves behind, as values.

  The kernel body runs in one of three ways, by the position `k` of the point on the grid's last axis (the axis the
  inner dimension is cut along):
    first (`k = 0`)   — the accumulator is set to zero, then the product of the point's two input blocks is added;
    middle (`0 < k < 3`) — the product is added to what the point before left in the accumulator;
    last (`k = 3`)    — the same, and then the output block is stored: the accumulator plus the bias row, cut below at
                        zero.
  Each way stores whole buffers only, so what a buffer holds afterwards is the payload of the last store into it, and a
  whole-buffer load after a store reads that store's payload. This module states exactly that, for the accumulator
  in each of the three ways and for the output block in the last, over the body's own payload terms: `k0_pay1` (the
  zero block), `k0_pay2 acc a b` (`acc + a · b`) and `k0_pay3 bias acc` (`max (acc + bias) 0`). No arithmetic is
  opened here; the statements hold for any reading of the float operations.
-/
import proofs.«123908_j10359461118625_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

/-- The offsets of every load and store of the body: the origin. -/
theorem origin : (![0, 0] : Fin 2 → Nat) = fun _ => 0 := funext fun a => by fin_cases a <;> rfl

/-- FIRST point of a run: the accumulator ends at `0 + a · b` — the zero block stored, read back, and the product
    added to it. -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

/-- MIDDLE point: the accumulator ends at `acc + a · b` over what the point before left in it. -/
theorem acc_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) origin]
  simp only [View.readAt_eq_ld, harg3.read_unread, harg4.read_unread, harg7.read_unread, View.ld_unit_zero (S := S1024x1024) origin]

/-- LAST point: the accumulator likewise ends at `acc + a · b`; -/
theorem acc_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) origin]
  simp only [View.readAt_eq_ld, harg3.read_unread, harg4.read_unread, harg7.read_unread, View.ld_unit_zero (S := S1024x1024) origin]

/-- and the output block is `max (acc' + bias) 0` of that final accumulator `acc' = acc + a · b`, which the body reads
    back after storing it. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 x2 (k0_pay2 xs0 x0 x1) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) origin, View.readCov_unit_zero (S := S1024x1024) _ origin]
  simp only [View.readAt_eq_ld, harg3.read_unread, harg4.read_unread, harg5.read_unread, harg7.read_unread,
    View.ld_unit_zero (S := S1024x1024) origin, View.ld_unit_zero (S := S1x1024) origin]

end Cert.KernelIdeal.Found

end
-- ==== Proof.Payloads.lean ====
/-
  The body's three payloads, entry by entry, over the extended reals.

  Read with exact arithmetic, at entry (p, q) of a 1024 × 1024 block:
    the zero block is `0`;
    `acc + a · b` is `acc p q + ∑ kk < 1024, a p kk · b kk q` — the matrix unit's product into a zero accumulator is the
      plain sum of products over the one contracted axis, and changes of float format are the identity;
    `max (acc + bias) 0` is `max (acc p q + bias 0 q) 0` — the bias is one row, spread over the block's 1024 rows.
-/
import proofs.«123908_j10359461118625_1_alg».proof.Proof.Gen.KernelIdeal.Skeleton
import proofs.«123908_j10359461118625_1_alg».proof.Proof.Dense
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen Cert.Dense

/-- The product's dimension numbers: rows of the left block against columns of the right, one contracted axis. -/
abbrev dot : DotDims S1024x1024 S1024x1024 S1024x1024 := dot_S1024x1024_S1024x1024_S1024x1024_1_0_0_1_n_n

/-! ## Which entries of the two blocks the product at (p, q) and contraction index k reads: (p, k) and (k, q) -/

theorem lhs_row (i : S1024x1024.Idx) (q : dot.contr.Idx) : (dot.lhsIdx i q 0).val = (i 0).val := by
  unfold DotDims.lhsIdx
  rw [dif_neg (show ¬(0 : Fin S1024x1024.rank) ∈ dot.lhsBatch by decide), dif_pos (show (0 : Fin S1024x1024.rank) ∈ dot.lhsNonContracting by decide)]
  rfl

theorem lhs_col (i : S1024x1024.Idx) (q : dot.contr.Idx) : (dot.lhsIdx i q 1).val = (q ⟨0, by decide⟩).val :=
  dot.lhsIdx_val_of_single rfl i q

theorem rhs_row (i : S1024x1024.Idx) (q : dot.contr.Idx) : (dot.rhsIdx i q 0).val = (q ⟨0, by decide⟩).val :=
  dot.rhsIdx_val_of_single rfl i q

theorem rhs_col (i : S1024x1024.Idx) (q : dot.contr.Idx) : (dot.rhsIdx i q 1).val = (i 1).val := by
  unfold DotDims.rhsIdx
  rw [dif_neg (show ¬(1 : Fin S1024x1024.rank) ∈ dot.rhsBatch by decide), dif_pos (show (1 : Fin S1024x1024.rank) ∈ dot.rhsNonContracting by decide)]
  rfl

/-! ## The payloads at an entry -/

/-- The zero block is zero. -/
theorem zero_apply (j : S1024x1024.Idx) : k0_pay1 (F := Ideal) j = 0 :=
  Ideal.ofBits_zero_f32

/-- `acc + a · b` at an entry: the accumulator's entry plus the row of `a` against the column of `b`. -/
theorem acc_apply (acc : Vec Ideal S1024x1024 .f32) (a b : Vec Ideal S1024x1024 .bf16) (j : S1024x1024.Idx) :
    k0_pay2 (F := Ideal) acc a b j
      = acc j + ∑ kk ∈ Finset.range 1024, at2 a (j 0).val kk * at2 b kk (j 1).val := by
  unfold k0_pay2
  simp only [shapeCast_self]
  show acc j + FloatOps.matmul dot none a b (constant (F := Ideal) S1024x1024 .f32 0x00000000#32) j = _
  rw [Ideal.matmul_constant_zero_apply, ← Equiv.sum_comp (contrEquiv1 dot 1024 rfl rfl).symm,
    ← Fin.sum_univ_eq_sum_range (fun kk => at2 a (j 0).val kk * at2 b kk (j 1).val) 1024]
  refine congrArg (acc j + ·) (Finset.sum_congr rfl fun k _ => ?_)
  have hk := contrEquiv1_symm_val dot 1024 rfl rfl k
  rw [at2_idx a, at2_idx b, lhs_row, lhs_col, rhs_row, rhs_col, hk]

/-- `max (acc + bias) 0` at an entry. -/
theorem out_apply (bias : Vec Ideal S1x1024 .f32) (acc : Vec Ideal S1024x1024 .f32) (j : S1024x1024.Idx) :
    k0_pay3 (F := Ideal) bias acc j = max (acc j + at2 bias 0 (j 1).val) 0 := by
  unfold k0_pay3
  simp only [shapeCast_self]
  show max (acc j + broadcastTo S1024x1024 bias broadcasts_S1x1024_S1024x1024 j) (Ideal.ofBits .f32 0x00000000#32) = _
  rw [Ideal.ofBits_zero_f32, at2_of_lt bias 0 (j 1).val (by decide) (j 1).isLt]
  refine congrArg (fun z => max (acc j + z) 0) ?_
  exact broadcastTo_apply bias broadcasts_S1x1024_S1024x1024 j _ (fun a => match a with
    | ⟨0, _⟩ => by show 0 = if (1 : Nat) = 1 then 0 else _; rw [if_pos rfl]
    | ⟨1, _⟩ => by show (j 1).val = if (1024 : Nat) = 1 then 0 else (j ⟨1 + (2 - 2), _⟩).val; rw [if_neg (by decide)]; rfl)

end Cert.KernelIdeal.Pay

end
-- ==== Proof.Blocks.lean ====
/-
  What the kernel's windows hold at a grid point, in terms of the arrays they are cut from.

  The 8 × 4 × 4 grid is walked with its last axis fastest: point `t` has coordinates `(t / 16, t / 4 % 4, t % 4)` =
  (row block of the input, column block of the weight, slab of the inner dimension). At point `t`
    the input's block is rows `1024 · (t / 16) ..`, columns `1024 · (t % 4) ..` of the 8192 × 4096 input;
    the weight's block is rows `1024 · (t % 4) ..`, columns `1024 · (t / 4 % 4) ..` of the 4096 × 4096 weight;
    the bias's block is columns `1024 · (t / 4 % 4) ..` of the bias, laid out as one row of 4096;
    the output's block is rows `1024 · (t / 16) ..`, columns `1024 · (t / 4 % 4) ..` of the 8192 × 4096 result.
  A block's entry at local coordinate `y` on an axis is the array's entry at (block index) · (block extent) + `y` on
  that axis. The reads are stated first for ANY array in the window's place, then at the arrays the kernel finds.
-/
import proofs.«123908_j10359461118625_1_alg».proof.Proof.Gen.KernelIdeal.Frame
import proofs.«123908_j10359461118625_1_alg».proof.Proof.Dense
import Idealize.ShloMosaic.Lib.Pipeline.Value
import Idealize.ShloMosaic.Lib.ValueIdx

set_option Elab.async false

noncomputable section

namespace Cert.KernelIdeal.Blocks

open Idealize.ShloMosaic Idealize.ShloMosaic.TcCoe Idealize.SL.Sem Idealize.ShloMosaic.ValueIdx
open Cert.KernelIdeal Cert.KernelIdeal.Gen Cert.Dense

/-! ## The block indices, decided once over the grid's 128 points -/

theorem index_facts : ∀ t : Fin cfg0.N,
    win0_0.index t 0 = t.val / 16 ∧ win0_0.index t 1 = t.val % 4
    ∧ win0_1.index t 0 = t.val % 4 ∧ win0_1.index t 1 = t.val / 4 % 4
    ∧ win0_2.index t 0 = 0 ∧ win0_2.index t 1 = t.val / 4 % 4
    ∧ win0_3.index t 0 = t.val / 16 ∧ win0_3.index t 1 = t.val / 4 % 4 :=
  (by decide +kernel : ∀ t : Fin grid0.N, _)

theorem index_output (t : Fin cfg0.N) : win0_3.index t 0 = t.val / 16 ∧ win0_3.index t 1 = t.val / 4 % 4 :=
  ⟨(index_facts t).2.2.2.2.2.2.1, (index_facts t).2.2.2.2.2.2.2⟩

/-! ## A block read through its window, for any array in the window's place -/

/-- The input window's block at point `t`, entry (p, kk): the array's entry (1024 · (t / 16) + p, 1024 · (t % 4) + kk). -/
theorem read_input (A : S8192x4096.Idx → EReal) (t : Fin cfg0.N) (p kk : ℕ) (hp : p < 1024) (hk : kk < 1024)
    (h0 : 1024 * (t.val / 16) + p < 8192) (h1 : 1024 * (t.val % 4) + kk < 4096) :
    (((cfg0.win 0).blk t).view.read (Elt Ideal) A : Vec Ideal S1024x1024 .bf16) (ix2 ⟨p, hp⟩ ⟨kk, hk⟩)
      = A (ix2 ⟨1024 * (t.val / 16) + p, h0⟩ ⟨1024 * (t.val % 4) + kk, h1⟩) := by
  rw [View.read_apply]
  show A _ = A _
  congr 1
  funext a
  apply Fin.ext
  match a with
  | ⟨0, _⟩ => show win0_0.index t 0 * 1024 + 1 * p = 1024 * (t.val / 16) + p; rw [(index_facts t).1]; omega
  | ⟨1, _⟩ => show win0_0.index t 1 * 1024 + 1 * kk = 1024 * (t.val % 4) + kk; rw [(index_facts t).2.1]; omega

/-- The weight window's block at point `t`, entry (kk, q): the array's entry (1024 · (t % 4) + kk, 1024 · (t / 4 % 4) + q). -/
theorem read_weight (A : S4096x4096.Idx → EReal) (t : Fin cfg0.N) (kk q : ℕ) (hk : kk < 1024) (hq : q < 1024)
    (h0 : 1024 * (t.val % 4) + kk < 4096) (h1 : 1024 * (t.val / 4 % 4) + q < 4096) :
    (((cfg0.win 1).blk t).view.read (Elt Ideal) A : Vec Ideal S1024x1024 .bf16) (ix2 ⟨kk, hk⟩ ⟨q, hq⟩)
      = A (ix2 ⟨1024 * (t.val % 4) + kk, h0⟩ ⟨1024 * (t.val / 4 % 4) + q, h1⟩) := by
  rw [View.read_apply]
  show A _ = A _
  congr 1
  funext a
  apply Fin.ext
  match a with
  | ⟨0, _⟩ => show win0_1.index t 0 * 1024 + 1 * kk = 1024 * (t.val % 4) + kk; rw [(index_facts t).2.2.1]; omega
  | ⟨1, _⟩ => show win0_1.index t 1 * 1024 + 1 * q = 1024 * (t.val / 4 % 4) + q; rw [(index_facts t).2.2.2.1]; omega

/-- The bias window's block at point `t`, entry (0, q): the row's entry (0, 1024 · (t / 4 % 4) + q). -/
theorem read_bias (A : S1x4096.Idx → EReal) (t : Fin cfg0.N) (q : ℕ) (hq : q < 1024)
    (h1 : 1024 * (t.val / 4 % 4) + q < 4096) :
    (((cfg0.win 2).blk t).view.read (Elt Ideal) A : Vec Ideal S1x1024 .f32) (ix2 ⟨0, Nat.one_pos⟩ ⟨q, hq⟩)
      = A (ix2 ⟨0, Nat.one_pos⟩ ⟨1024 * (t.val / 4 % 4) + q, h1⟩) := by
  rw [View.read_apply]
  show A _ = A _
  congr 1
  funext a
  apply Fin.ext
  match a with
  | ⟨0, _⟩ => show win0_2.index t 0 * 1 + 1 * 0 = 0; rw [(index_facts t).2.2.2.2.1]
  | ⟨1, _⟩ => show win0_2.index t 1 * 1024 + 1 * q = 1024 * (t.val / 4 % 4) + q; rw [(index_facts t).2.2.2.2.2.1]; omega

/-- The output window's block at point `t`, entry `j` = (p, q): the array's entry (1024 · (t / 16) + p, 1024 · (t / 4 % 4) + q). -/
theorem read_output (G : S8192x4096.Idx → EReal) (t : Fin cfg0.N) (j : S1024x1024.Idx)
    (h0 : 1024 * (t.val / 16) + (j 0).val < 8192) (h1 : 1024 * (t.val / 4 % 4) + (j 1).val < 4096) :
    (((cfg0.win 3).blk t).view.read (Elt Ideal) G : Vec Ideal S1024x1024 .f32) j
      = G (ix2 ⟨1024 * (t.val / 16) + (j 0).val, h0⟩ ⟨1024 * (t.val / 4 % 4) + (j 1).val, h1⟩) := by
  rw [View.read_apply]
  show G _ = G _
  congr 1
  funext a
  apply Fin.ext
  match a with
  | ⟨0, _⟩ => show win0_3.index t 0 * 1024 + 1 * (j 0).val = 1024 * (t.val / 16) + (j 0).val; rw [(index_output t).1]; omega
  | ⟨1, _⟩ => show win0_3.index t 1 * 1024 + 1 * (j 1).val = 1024 * (t.val / 4 % 4) + (j 1).val; rw [(index_output t).2]; omega

/-! ## The windows' blocks at a point, read off the arrays the kernel finds -/

variable (m : (ℓ : Loc nD τ sig) → Buf (Elt Ideal) ℓ)

theorem input_block (c : Dev nD) (t : Fin cfg0.N) (p kk : ℕ) (hp : p < 1024) (hk : kk < 1024) :
    at2 (iblk m c 0 t : Vec Ideal S1024x1024 .bf16) p kk
      = at2 (V m c main_v15 : S8192x4096.Idx → EReal) (1024 * (t.val / 16) + p) (1024 * (t.val % 4) + kk) := by
  have ht : t.val < 128 := lt_of_lt_of_eq t.isLt N_0
  have h0 : 1024 * (t.val / 16) + p < 8192 := by omega
  have h1 : 1024 * (t.val % 4) + kk < 4096 := by omega
  rw [at2_of_lt _ p kk hp hk, at2_of_lt _ _ _ h0 h1]
  exact read_input _ t p kk hp hk h0 h1

theorem weight_block (c : Dev nD) (t : Fin cfg0.N) (kk q : ℕ) (hk : kk < 1024) (hq : q < 1024) :
    at2 (iblk m c 1 t : Vec Ideal S1024x1024 .bf16) kk q
      = at2 (V m c main_v16 : S4096x4096.Idx → EReal) (1024 * (t.val % 4) + kk) (1024 * (t.val / 4 % 4) + q) := by
  have ht : t.val < 128 := lt_of_lt_of_eq t.isLt N_0
  have h0 : 1024 * (t.val % 4) + kk < 4096 := by omega
  have h1 : 1024 * (t.val / 4 % 4) + q < 4096 := by omega
  rw [at2_of_lt _ kk q hk hq, at2_of_lt _ _ _ h0 h1]
  exact read_weight _ t kk q hk hq h0 h1

theorem bias_block (c : Dev nD) (t : Fin cfg0.N) (q : ℕ) (hq : q < 1024) :
    at2 (iblk m c 2 t : Vec Ideal S1x1024 .f32) 0 q
      = at2 (V m c main_v17 : S1x4096.Idx → EReal) 0 (1024 * (t.val / 4 % 4) + q) := by
  have ht : t.val < 128 := lt_of_lt_of_eq t.isLt N_0
  have h1 : 1024 * (t.val / 4 % 4) + q < 4096 := by omega
  rw [at2_of_lt _ 0 q Nat.one_pos hq, at2_of_lt _ 0 _ Nat.one_pos h1]
  exact read_bias _ t q hq h1

end Cert.KernelIdeal.Blocks

end
-- ==== Proof.HostArrays.lean ====
/-
  The three arrays the kernel's windows are cut from, as the host leaves them before the kernel runs.

  The host rounds the input and the weight to a narrower float format — over the extended reals the identity —, builds
  the weight by scattering the nonzero values into a zero 4096 × 4096 matrix (`weight`: one term, never opened — the
  reference builds the very same term), and lays the bias out as a 1 × 4096 row, whose entry (0, s) is the bias's
  entry `s`.
-/
import proofs.«123908_j10359461118625_1_alg».proof.Proof.Gen.KernelIdeal.Frame
import proofs.«123908_j10359461118625_1_alg».proof.Proof.Dense
import Idealize.ShloMosaic.Lib.Pipeline.Value
import Idealize.ShloMosaic.Lib.StableHlo.Run
import Idealize.ShloMosaic.Lib.ValueIdx

noncomputable section

namespace Cert.KernelIdeal.HostArrays

open Idealize.ShloMosaic Idealize.ShloMosaic.TcCoe Idealize.SL.Sem Idealize.ShloMosaic.ValueIdx
open Cert.KernelIdeal Cert.KernelIdeal.Gen Cert.Dense

variable (m : (ℓ : Loc nD τ sig) → Buf (Elt Ideal) ℓ)

/-- The dense weight: the nonzero values scattered into a zero 4096 × 4096 matrix at their (row, column) pairs, a
    negative row or column counted from the end. One opaque term; both programs build it the same way. -/
def weight (x1 : (⟨S1677721, .f32⟩ : BufTy).Contents (Elt Ideal)) (x3 x4 : (⟨S1677721, .i32⟩ : BufTy).Contents (Elt Ideal)) :
    (⟨S4096x4096, .f32⟩ : BufTy).Contents (Elt Ideal) :=
  Host.scatter scatter_S4096x4096_S1677721x2_S1677721_n_01_01_1 (fun _ b => b)
    (broadcastInDim S4096x4096 ![] bcast_S_S4096x4096 (constant (F := Ideal) S_ .f32 0x00000000#32))
    (concatenate S1677721x2 1
      [⟨S1677721x1, broadcastInDim S1677721x1 ![0] bcast_S1677721_S1677721x1_0
          (select (cmpi .slt x3 (broadcastInDim S1677721 ![] bcast_S_S1677721 (constantI S_ 32 0#32)))
            (addi x3 (broadcastInDim S1677721 ![] bcast_S_S1677721 (constantI S_ 32 4096#32))) x3)⟩,
       ⟨S1677721x1, broadcastInDim S1677721x1 ![0] bcast_S1677721_S1677721x1_0
          (select (cmpi .slt x4 (broadcastInDim S1677721 ![] bcast_S_S1677721 (constantI S_ 32 0#32)))
            (addi x4 (broadcastInDim S1677721 ![] bcast_S_S1677721 (constantI S_ 32 4096#32))) x4)⟩]
      concatenates_S1677721x1_S1677721x1_S1677721x2_d1)
    x1

/-- The input the kernel stages is the input argument (rounded to the narrower format: the identity here). -/
theorem input_eq (c : Dev nD) :
    (V m c main_v15 : S8192x4096.Idx → EReal) = m ((c : Thread nD τ).loc main_arg0) := by
  have e : @Eq (S8192x4096.Idx → EReal) (V m c main_v15)
      (truncf (F := Ideal) (s := S8192x4096) (φ := .f32) .bf16 (m ((c : Thread nD τ).loc main_arg0)) bitsLt_bf16_f32) := by
    dsimp only [Gen.V, Gen.hostOps0]; after_results <;> rfl
  rw [e]
  funext i
  exact truncf_apply (φ := .f32) (ψ := .bf16) _ bitsLt_bf16_f32 i

set_option maxHeartbeats 4000000 in
/-- The weight the kernel stages is the scattered weight (rounded likewise). -/
theorem weight_eq (c : Dev nD) :
    (V m c main_v16 : S4096x4096.Idx → EReal)
      = weight (m ((c : Thread nD τ).loc main_arg1)) (m ((c : Thread nD τ).loc main_arg3)) (m ((c : Thread nD τ).loc main_arg4)) := by
  have e : @Eq (S4096x4096.Idx → EReal) (V m c main_v16)
      (truncf (F := Ideal) (s := S4096x4096) (φ := .f32) .bf16
        (weight (m ((c : Thread nD τ).loc main_arg1)) (m ((c : Thread nD τ).loc main_arg3)) (m ((c : Thread nD τ).loc main_arg4)))
        bitsLt_bf16_f32) := by
    dsimp only [Gen.V, Gen.hostOps0]; after_results <;> rfl
  rw [e]
  funext i
  exact truncf_apply (φ := .f32) (ψ := .bf16) _ bitsLt_bf16_f32 i

/-- The bias the kernel stages, a 1 × 4096 row, holds the bias argument's entry `s` at (0, s). -/
theorem bias_apply (c : Dev nD) (s : ℕ) (hs : s < 4096) :
    at2 (V m c main_v17 : S1x4096.Idx → EReal) 0 s = at1 (m ((c : Thread nD τ).loc main_arg2) : S4096.Idx → EReal) s := by
  have e : (V m c main_v17 : S1x4096.Idx → EReal)
      = shapeCast S1x4096 (m ((c : Thread nD τ).loc main_arg2) : S4096.Idx → EReal) shapeCasts_S4096_S1x4096 := by
    dsimp only [Gen.V, Gen.hostOps0]; after_results <;> rfl
  rw [e, at2_of_lt _ 0 s (by decide) hs, at1_of_lt _ s hs]
  refine shapeCast_apply _ shapeCasts_S4096_S1x4096 _ _ ?_
  rw [Shape.rowMajor_val_one, Shape.rowMajor_val_two]
  show s = 0 * 4096 + s
  omega

end Cert.KernelIdeal.HostArrays

end
-- ==== Proof.KernelValue.lean ====
/-
  The kernel's result array, as one function of its arguments.

  The grid's last axis runs fastest, so the 128 points fall into 32 runs of four consecutive points; run `u` works on
  output block (u / 4, u % 4). Along a run the accumulator is reset at the first point and grows by one slab's product at
  each point: after point `4u + j` it holds `0 + ∑ s ≤ j, (slab s's product)`. At the run's last point (`j = 3`) the
  output block is written: `max (accumulator + bias) 0`, which is then the only write to that block of the result.
  Entry (p, q) of slab `s`'s product is `∑ kk < 1024, X (1024 (u / 4) + p) (1024 s + kk) · W (1024 s + kk) (1024 (u % 4) + q)`,
  so the four slabs together are the sum over all 4096 values of the inner index, and the block written is the block of
  the dense layer `max (X · W + b) 0`. The 32 blocks tile the 8192 × 4096 result.
-/
import proofs.«123908_j10359461118625_1_alg».proof.Proof.Gen.KernelIdeal.Value
import proofs.«123908_j10359461118625_1_alg».proof.Proof.Dense
import proofs.«123908_j10359461118625_1_alg».proof.Proof.Pieces
import proofs.«123908_j10359461118625_1_alg».proof.Proof.Payloads
import proofs.«123908_j10359461118625_1_alg».proof.Proof.Blocks
import proofs.«123908_j10359461118625_1_alg».proof.Proof.HostArrays
import Idealize.ShloMosaic.Lib.Pipeline.Value
import Idealize.ShloMosaic.Lib.ValueIdx

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (m : (ℓ : Loc nD τ sig) → Buf (Elt Ideal) ℓ) (ρ : Dev nD → PrngReg)

/-! ## The accumulator along a run -/

/-- What a point leaves in the accumulator, over what the point before left: at a run's first point `0 + a · b`,
    elsewhere `acc + a · b`, of the point's input and weight blocks. -/
theorem step_eq (c : Dev nD) (n : ℕ) (hb : n < cfg0.N) (acc : Vec Ideal S1024x1024 .f32) :
    Value.scAt0_0 m c n hb acc
      = k0_pay2 (if n % 4 = 0 then k0_pay1 (F := Ideal) else acc) (iblk m c 0 ⟨n, hb⟩) (iblk m c 1 ⟨n, hb⟩) := by
  have hN : n < 128 := lt_of_lt_of_eq hb N_0
  unfold Value.scAt0_0
  by_cases h0 : n % 4 = 0
  · have h1 : ¬n % 4 = 3 := by omega
    rw [dif_pos h0, dif_neg h1, if_pos h0]
    exact Found.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))
  · rw [dif_neg h0, if_neg h0]
    by_cases h1 : n % 4 = 3
    · rw [dif_pos h1]
      exact Found.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
    · rw [dif_neg h1]
      exact Found.acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- Entry `j` of the product of point `n`'s input and weight blocks (`0` past the grid, where nothing looks). -/
def slab (c : Dev nD) (n : ℕ) (j : S1024x1024.Idx) : EReal :=
  if h : n < cfg0.N then
    ∑ kk ∈ Finset.range 1024, at2 (iblk m c 0 ⟨n, h⟩ : Vec Ideal S1024x1024 .bf16) (j 0).val kk
      * at2 (iblk m c 1 ⟨n, h⟩ : Vec Ideal S1024x1024 .bf16) kk (j 1).val
  else 0

/-- After point `t` the accumulator holds the sum of the products of the run's points so far. -/
theorem acc_eq (c : Dev nD) (t : Fin cfg0.N) (j : S1024x1024.Idx) :
    (outsAt0 m c t.val t.isLt).2 j = 0 + ∑ s ∈ Finset.range (t.val % 4 + 1), slab m c (4 * (t.val / 4) + s) j := by
  have hN : t.val < 128 := lt_of_lt_of_eq t.isLt N_0
  rw [Value.soutsAt0_0_eq m c t]
  refine Pipeline.accAt_add_apply (ι := S1024x1024.Idx) (β := EReal) _ _ (fun _ => 0) (slab m c) (4 * (t.val / 4)) 3 ?_ ?_
    (t.val % 4) (by omega) _ j
  · intro h i
    show Value.scAt0_0 m c (4 * (t.val / 4)) h _ i = 0 + slab m c (4 * (t.val / 4)) i
    rw [step_eq, if_pos (by omega), Pay.acc_apply, Pay.zero_apply]
    unfold slab; rw [dif_pos h]
  · intro n h acc i hlt hle
    show Value.scAt0_0 m c n h acc i = acc i + slab m c n i
    rw [step_eq, if_neg (by omega), Pay.acc_apply]
    unfold slab; rw [dif_pos h]

/-- At a run's last point the output block is `max (accumulator + bias) 0` of the accumulator the point leaves. -/
theorem out_eq (c : Dev nD) (t : Fin cfg0.N) (h3 : t.val % 4 = 3) :
    (outsAt0 m c t.val t.isLt).1 = k0_pay3 (iblk m c 2 t) ((outsAt0 m c t.val t.isLt).2) := by
  have h0 : ¬t.val % 4 = 0 := by omega
  rw [outsAt0_C m c t h0 h3]
  dsimp only
  rw [Found.out_last, Found.acc_last]

/-! ## The result array -/

/-- What the result array holds after the run: the dense layer of the arrays the windows are cut from. -/
abbrev staged (c : Dev nD) : S8192x4096.Idx → EReal :=
  denseRelu (V m c main_v15 : S8192x4096.Idx → EReal) (V m c main_v16 : S4096x4096.Idx → EReal)
    (fun s => at2 (V m c main_v17 : S1x4096.Idx → EReal) 0 (s 0).val)

/-- Entry (p, q) of the block written at a run's last point `t` is the dense layer's entry
    (1024 (t / 16) + p, 1024 (t / 4 % 4) + q). -/
theorem block_apply (c : Dev nD) (t : Fin cfg0.N) (h3 : t.val % 4 = 3) (j : S1024x1024.Idx) (i : S8192x4096.Idx)
    (hi0 : (i 0).val = 1024 * (t.val / 16) + (j 0).val) (hi1 : (i 1).val = 1024 * (t.val / 4 % 4) + (j 1).val) :
    (outsAt0 m c t.val t.isLt).1 j = staged m c i := by
  have hN : t.val < 128 := lt_of_lt_of_eq t.isLt N_0
  have hj0 : (j 0).val < 1024 := (j 0).isLt
  have hj1 : (j 1).val < 1024 := (j 1).isLt
  rw [out_eq m c t h3, Pay.out_apply, acc_eq, h3, zero_add]
  show _ = max ((∑ k ∈ Finset.range 4096, at2 (V m c main_v15 : S8192x4096.Idx → EReal) (i 0).val k
      * at2 (V m c main_v16 : S4096x4096.Idx → EReal) k (i 1).val)
    + at1 (fun s => at2 (V m c main_v17 : S1x4096.Idx → EReal) 0 (s 0).val) (i 1).val) 0
  rw [sum_4096, Blocks.bias_block m c t _ hj1, at1_of_lt _ _ (by omega), hi0, hi1]
  refine congrArg (fun z => max (z + _) 0) (Finset.sum_congr rfl fun s hs => ?_)
  have hs4 : s < 4 := Finset.mem_range.mp hs
  have hn : 4 * (t.val / 4) + s < cfg0.N := lt_of_lt_of_eq (by omega : 4 * (t.val / 4) + s < 128) N_0.symm
  unfold slab; rw [dif_pos hn]
  refine Finset.sum_congr rfl fun kk hkk => ?_
  have hk : kk < 1024 := Finset.mem_range.mp hkk
  rw [Blocks.input_block m c ⟨_, hn⟩ _ _ hj0 hk, Blocks.weight_block m c ⟨_, hn⟩ _ _ hk hj1]
  show at2 _ (1024 * ((4 * (t.val / 4) + s) / 16) + (j 0).val) (1024 * ((4 * (t.val / 4) + s) % 4) + kk)
      * at2 _ (1024 * ((4 * (t.val / 4) + s) % 4) + kk) (1024 * ((4 * (t.val / 4) + s) / 4 % 4) + (j 1).val) = _
  rw [show (4 * (t.val / 4) + s) / 16 = t.val / 16 by omega, show (4 * (t.val / 4) + s) % 4 = s by omega,
    show (4 * (t.val / 4) + s) / 4 % 4 = t.val / 4 % 4 by omega]

/-- WHAT A WRITING POINT WRITES BACK is its block of the dense layer. -/
theorem flushed_eq (c : Dev nD) (t : Fin cfg0.N) (hf : (cfg0.win 3).flush t = true) :
    (dats m 0 c).flushed 3 t = ((cfg0.win 3).blk t).view.read (Elt Ideal) (staged m c) := by
  have h3 : t.val % 4 = 3 := (flush0_3 t).mp hf
  have hN : t.val < 128 := lt_of_lt_of_eq t.isLt N_0
  rw [Value.flushed3]
  funext j
  have hj0 : (j 0).val < 1024 := (j 0).isLt
  have hj1 : (j 1).val < 1024 := (j 1).isLt
  rw [Blocks.read_output (staged m c) t j (by omega) (by omega)]
  show (outsAt0 m c t.val t.isLt).1 j = _
  exact block_apply m c t h3 j _ rfl rfl

/-- An index of the result is in point `t`'s block iff each coordinate is in the block's range on its axis. -/
theorem mem_block (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v18).slice (win0_3.rect t)).set ↔ _
  rw [View.set_slice_whole, Rect.mem_set_unit]
  exact Iff.rfl

/-- Every entry of the result lies in the block of some writing point: entry (r, s) in that of the last point of run
    `4 (r / 1024) + s / 1024`. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  refine ⟨⟨16 * ((i 0).val / 1024) + 4 * ((i 1).val / 1024) + 3, lt_of_lt_of_eq (by omega : 16 * ((i 0).val / 1024) + 4 * ((i 1).val / 1024) + 3 < 128) N_0.symm⟩, (flush0_3 _).mpr (by show (16 * ((i 0).val / 1024) + 4 * ((i 1).val / 1024) + 3) % 4 = 3; omega), ?_⟩
  rw [mem_block]
  intro a
  match a with
  | ⟨0, _⟩ =>
    show win0_3.index _ 0 * 1024 ≤ (i 0).val ∧ (i 0).val < win0_3.index _ 0 * 1024 + 1024
    rw [(Blocks.index_output _).1]
    show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win0_3.index _ 1 * 1024 ≤ (i 1).val ∧ (i 1).val < win0_3.index _ 1 * 1024 + 1024
    rw [(Blocks.index_output _).2]
    show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- The result array after the run, over the staged arrays. -/
theorem final (c : Dev nD) : (dats m 0 c).arrAt 3 cfg0.N = staged m c :=
  (dats m 0 c).arrAt_eq_of_cover 3 (staged m c) (flushed_eq m c) cover

/-- The result array after the run, over the program's arguments: the dense layer of the input, the scattered weight
    and the bias. -/
abbrev result (c : Dev nD) : S8192x4096.Idx → EReal :=
  denseRelu (m ((c : Thread nD τ).loc main_arg0))
    (HostArrays.weight (m ((c : Thread nD τ).loc main_arg1)) (m ((c : Thread nD τ).loc main_arg3)) (m ((c : Thread nD τ).loc main_arg4)))
    (m ((c : Thread nD τ).loc main_arg2))

theorem staged_eq (c : Dev nD) : staged m c = result m c := by
  funext i
  have hi1 : (i 1).val < 4096 := (i 1).isLt
  show max (_ + at1 (fun s => at2 (V m c main_v17 : S1x4096.Idx → EReal) 0 (s 0).val) (i 1).val) 0 = max (_ + _) 0
  rw [HostArrays.input_eq, HostArrays.weight_eq, at1_of_lt _ _ hi1]
  show max (_ + at2 (V m c main_v17 : S1x4096.Idx → EReal) 0 (i 1).val) 0 = _
  rw [HostArrays.bias_apply m c _ hi1]

/-- THE RUN: every weakly fair execution of the kernel program terminates with the result array at the dense layer of
    its arguments, and the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (staged_eq m c)), (h c).2⟩)
    (Value.run_blocks m ρ)

end Cert.KernelIdeal.Result

end
-- ==== Proof.RefValue.lean ====
/-
  The reference computes the dense layer.

  Its operations, read one at a time at an index: the product of the input with the scattered weight is, at (r, s), the
  sum over the 4096 values of the inner index of `X r k · W k s`; the bias is spread along the rows, so at (r, s) it
  contributes `b s`; the last operation is the maximum with a zero matrix. That is `denseRelu` of the input, the
  scattered weight (kept as the one term the reference's scatter produces) and the bias.
-/
import proofs.«123908_j10359461118625_1_alg».proof.Proof.Gen.ReferenceIdeal.Read
import proofs.«123908_j10359461118625_1_alg».proof.Proof.Dense
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.Dense

/-- The reference's last stage is the dense layer of its input, its scattered weight and its bias. -/
theorem result_eq (x0 : (⟨S8192x4096, .f32⟩ : BufTy).Contents (Elt Ideal)) (x1 : (⟨S1677721, .f32⟩ : BufTy).Contents (Elt Ideal))
    (x2 : (⟨S4096, .f32⟩ : BufTy).Contents (Elt Ideal)) (x3 x4 : (⟨S1677721, .i32⟩ : BufTy).Contents (Elt Ideal)) :
    val_main_v19 (F := Ideal) x0 x1 x2 x3 x4 = denseRelu x0 (val_main_v14 (F := Ideal) x1 x3 x4) x2 := by
  funext i
  rw [val_main_v19_apply, val_main_v18_apply, val_main_v15_apply, val_main_v17_apply, val_main_v16_apply,
    val_main_call0_v0_apply, val_main_call0_cst_apply]
  show max ((∑ k : Fin 4096, x0 (lidx_main_v15 i k) * val_main_v14 (F := Ideal) x1 x3 x4 (ridx_main_v15 i k))
      + x2 (idx_main_v16 (idx_main_v17 i))) (Ideal.ofBits .f32 0x00000000#32)
    = max ((∑ k ∈ Finset.range 4096, at2 x0 (i 0).val k * at2 (val_main_v14 (F := Ideal) x1 x3 x4) k (i 1).val)
      + at1 x2 (i 1).val) 0
  rw [Ideal.ofBits_zero_f32,
    ← Fin.sum_univ_eq_sum_range (fun k => at2 x0 (i 0).val k * at2 (val_main_v14 (F := Ideal) x1 x3 x4) k (i 1).val) 4096,
    at1_idx x2 (idx_main_v16 (idx_main_v17 i))]
  refine congrArg (fun z => max (z + _) 0) (Finset.sum_congr rfl fun k _ => ?_)
  rw [at2_idx x0 (lidx_main_v15 i k), at2_idx (val_main_v14 (F := Ideal) x1 x3 x4) (ridx_main_v15 i k)]

end Cert.ReferenceIdeal.RefValue

end
-- ==== Proof.Weights.lean ====
/-
  Both programs build the dense weight by the same host operations on the same arguments — the same zero matrix, the
  same (row, column) pairs with a negative coordinate counted from the end, the same scatter — so the two weights are
  one term. Nothing of the scatter is opened: the terms are compared as written.
-/
import proofs.«123908_j10359461118625_1_alg».proof.Proof.HostArrays
import proofs.«123908_j10359461118625_1_alg».proof.Proof.Gen.ReferenceIdeal.Read

noncomputable section

namespace Cert.Proof

open Idealize.ShloMosaic

set_option maxHeartbeats 100000 in
/-- The reference's scattered weight is the kernel program's. -/
theorem weight_same (x1 : (⟨Cert.ReferenceIdeal.S1677721, .f32⟩ : BufTy).Contents (Elt Ideal))
    (x3 x4 : (⟨Cert.ReferenceIdeal.S1677721, .i32⟩ : BufTy).Contents (Elt Ideal)) :
    Cert.ReferenceIdeal.Read.val_main_v14 (F := Ideal) x1 x3 x4 = Cert.KernelIdeal.HostArrays.weight x1 x3 x4 := by
  unfold Cert.ReferenceIdeal.Read.val_main_v14 Cert.KernelIdeal.HostArrays.weight
    Cert.ReferenceIdeal.Read.val_main_v0 Cert.ReferenceIdeal.Read.val_main_cst Cert.ReferenceIdeal.Read.val_main_v13
    Cert.ReferenceIdeal.Read.val_main_v11 Cert.ReferenceIdeal.Read.val_main_v12 Cert.ReferenceIdeal.Read.val_main_v5
    Cert.ReferenceIdeal.Read.val_main_v10 Cert.ReferenceIdeal.Read.val_main_v2 Cert.ReferenceIdeal.Read.val_main_v4
    Cert.ReferenceIdeal.Read.val_main_v7 Cert.ReferenceIdeal.Read.val_main_v9 Cert.ReferenceIdeal.Read.val_main_v1
    Cert.ReferenceIdeal.Read.val_main_v3 Cert.ReferenceIdeal.Read.val_main_v6 Cert.ReferenceIdeal.Read.val_main_v8
    Cert.ReferenceIdeal.Read.val_main_c Cert.ReferenceIdeal.Read.val_main_c_0 Cert.ReferenceIdeal.Read.val_main_c_1
    Cert.ReferenceIdeal.Read.val_main_c_2
  rfl

end Cert.Proof

end
-- ==== Proof.lean ====
/-
  The kernel and its reference compute the same dense layer.

  Both programs take an 8192 × 4096 input `X`, 1,677,721 nonzero weight values with their row and column numbers, and a
  bias `b` of 4096 entries; both scatter the values into a zero 4096 × 4096 matrix `W` by the same host operations, and
  both return `max (X · W + b) 0`. The reference forms `X · W` in one product. The kernel cuts the result into 8 × 4
  blocks of 1024 × 1024 and the inner dimension into four slabs of 1024; for each block it adds the four slabs'
  products into an accumulator that starts from zero, and after the fourth adds the bias and cuts below at zero. Over
  the extended reals every float operation is exact and a change of float format is the identity, so the kernel's
  entry is `max ((((0 + S₀) + S₁) + S₂) + S₃ + b s) 0` with `Sⱼ = ∑ kk < 1024, X r (1024 j + kk) · W (1024 j + kk) s`,
  and the reference's is `max (∑ k < 4096, X r k · W k s + b s) 0`. Addition on the extended reals is associative and
  commutative with `0` neutral — no entry needs to be finite for that — so the two are equal; the precondition is
  never opened.

  The modules: LibNatCoords (matrices read by natural-number coordinates; a sum cut into slabs), Dense (the function), Pieces (what one grid point leaves in the accumulator and in the
  output block), Payloads (those values entry by entry), Blocks and HostArrays (what the windows hold, in terms of the
  arguments), KernelValue (the kernel's result array is the function), RefValue (so is the reference's), Weights (the two
  scattered weights are one term). The kernel programs' termination and framing, the kernel's run block by block and
  the reference's run are the imported generated modules.
-/
import proofs.«123908_j10359461118625_1_alg».proof.Defs
import proofs.«123908_j10359461118625_1_alg».proof.Proof.Gen.Kernel
import proofs.«123908_j10359461118625_1_alg».proof.Proof.Gen.Kernel.Skeleton
import proofs.«123908_j10359461118625_1_alg».proof.Proof.Gen.Kernel.Launch
import proofs.«123908_j10359461118625_1_alg».proof.Proof.Gen.Kernel.Points
import proofs.«123908_j10359461118625_1_alg».proof.Proof.Gen.Kernel.Frame
import proofs.«123908_j10359461118625_1_alg».proof.Proof.Gen.KernelIdeal
import proofs.«123908_j10359461118625_1_alg».proof.Proof.Gen.KernelIdeal.Skeleton
import proofs.«123908_j10359461118625_1_alg».proof.Proof.Gen.KernelIdeal.Launch
import proofs.«123908_j10359461118625_1_alg».proof.Proof.Gen.KernelIdeal.Points
import proofs.«123908_j10359461118625_1_alg».proof.Proof.Gen.KernelIdeal.Frame
import proofs.«123908_j10359461118625_1_alg».proof.Proof.Gen.ReferenceIdeal
import proofs.«123908_j10359461118625_1_alg».proof.Proof.Gen.Pre_finite_inputs
import proofs.«123908_j10359461118625_1_alg».proof.Proof.Gen.KernelIdeal.Value
import proofs.«123908_j10359461118625_1_alg».proof.Proof.Gen.ReferenceIdeal.Run
import proofs.«123908_j10359461118625_1_alg».proof.Proof.Gen.ReferenceIdeal.Read
import proofs.«123908_j10359461118625_1_alg».proof.Proof.KernelValue
import proofs.«123908_j10359461118625_1_alg».proof.Proof.RefValue
import proofs.«123908_j10359461118625_1_alg».proof.Proof.Weights
import Idealize.ShloMosaic.Adequacy
import Idealize.ShloMosaic.Init

noncomputable section

namespace Cert.Proof

open Idealize.ShloMosaic Idealize.SL.Sem

/-- The kernel program as printed runs, and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten to read it over the extended reals. -/
theorem preserves : Cert.preserves_Kernel_KernelIdeal := trivial

/-- From arguments that agree, the kernel's result array and the reference's both end at the dense layer
    `max (X · W + b) 0` of the input, the scattered weight and the bias. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, weight_same,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
